-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : IVec S2x262144 32) (main_arg2 : FVec F S128x128 .f32) (main_arg3 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1024x4096 : Shape := ⟨2, ![1024, 4096]⟩
abbrev S4096x128 : Shape := ⟨2, ![4096, 128]⟩
abbrev S1024x128 : Shape := ⟨2, ![1024, 128]⟩
abbrev S1024x1 : Shape := ⟨2, ![1024, 1]⟩

abbrev nBuf : Space → Nat
  | .hbm => 48
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128x128, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .bf16⟩
  | .hbm, ⟨9, _⟩ => ⟨S8192x8192, .bf16⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S8192, .f32⟩
  | .hbm, ⟨34, _⟩ => ⟨S262144x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S8192x1, .f32⟩
  | .hbm, ⟨47, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S4096x128, .f32⟩
  | .local _ .vmem, ⟨4, _⟩ => ⟨S128x128, .f32⟩
  | .local _ .vmem, ⟨5, _⟩ => ⟨S1024x128, .f32⟩
  | .local _ .vmem, ⟨6, _⟩ => ⟨S1024x128, .f32⟩
  | .local _ .vmem, ⟨7, _⟩ => ⟨S128x128, .f32⟩
  | .local _ .vmem, ⟨8, _⟩ => ⟨S1024x1, .f32⟩
  | .local _ .vmem, ⟨9, _⟩ => ⟨S1024x1, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v18 : BitVec 1 := Scalar.cmpi .eq arg1 c1_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  shapeCasts_S8192_S8192x1 : S8192.ShapeCasts S8192x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  scatter_S8192x8192_S262144x2_S262144_n_01_01_1_wf : ScatterDims.WF S8192x8192 S262144x2 S262144 [] [0, 1] [0, 1] 1
  scatter_S8192_S262144x1_S262144_n_0_0_1_wf : ScatterDims.WF S8192 S262144x1 S262144 [] [0] [0] 1
  dot_S4096x128_S128x128_S4096x128_1_0_0_1_n_n_wf : DotDims.WF S4096x128 S128x128 S4096x128 [1] [0] [0] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x8192.size a
  hwx0_0 : ∀ i : grid0.Coords, EltTy.bits .bf16 = 32 ∨ (Rect.block (s := S8192x8192) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S8192x128.size a
  hwx0_1 : ∀ i : grid0.Coords, EltTy.bits .f32 = 32 ∨ (Rect.block (s := S8192x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S8192x128.size a
  hwx0_6 : ∀ i : grid0.Coords, EltTy.bits .f32 = 32 ∨ (Rect.block (s := S8192x128) S1024x128.size (cc0_transform_6 i) (hinb0_6 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v19) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128x128, .f32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S_, .f32⟩
  | .hbm, ⟨9, _⟩ => ⟨S8192x8192, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S_, .f32⟩
  | .hbm, ⟨31, _⟩ => ⟨S262144, .f32⟩
  | .hbm, ⟨32, _⟩ => ⟨S_, .f32⟩
  | .hbm, ⟨33, _⟩ => ⟨S8192, .f32⟩
  | .hbm, ⟨34, _⟩ => ⟨S262144x1, .i32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .i1⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S128x128, .f32⟩
  | .hbm, ⟨44, _⟩ => ⟨S8192x128, .f32⟩
  | .hbm, ⟨45, _⟩ => ⟨S8192x128, .f32⟩
  | .hbm, ⟨46, _⟩ => ⟨S8192x1, .f32⟩
  | .hbm, ⟨47, _⟩ => ⟨S8192x128, .f32⟩
  | .hbm, ⟨48, _⟩ => ⟨S8192x128, .f32⟩
  | .hbm, ⟨49, _⟩ => ⟨S128x128, .f32⟩
  | .hbm, ⟨50, _⟩ => ⟨S8192x128, .f32⟩
  | .hbm, ⟨51, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  transposes_S128x128_S128x128_1_0 : S128x128.Transposes [1, 0] S128x128
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  scatter_S8192x8192_S262144x2_S262144_n_01_01_1_wf : ScatterDims.WF S8192x8192 S262144x2 S262144 [] [0, 1] [0, 1] 1
  scatter_S8192_S262144x1_S262144_n_0_0_1_wf : ScatterDims.WF S8192 S262144x1 S262144 [] [0] [0] 1
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KBase.lean ====
/-
  What the two runs of the kernel body and the proof data share: the buffers as the region finds them
  after the host lines, each window's block at a grid point, the two branch conditions in closed form
  over the grid (the second coordinate is 0 at the even points and 1 at the odd ones), where the output
  window is idle, and the staging memrefs the pipeline calls the body with.
-/
import proofs.«112509_j79422535238375_2_alg».proof.Proof.Gen.Kernel.Launch
import proofs.«112509_j79422535238375_2_alg».proof.Proof.Gen.Kernel.Skeleton
import proofs.«112509_j79422535238375_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The TensorCore's buffers as the region finds them: the launch contents after the three stretches of
    host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- The first conditional (the accumulator is reset): the second grid coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (the output block is finished and stored): the second grid coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At the even points the output window is idle: nothing is stored into it, -/
theorem idleAt0_6_A : ∀ t : Fin cfg0.N, cond0_0 (grid0.coords t) → ¬cond0_1 (grid0.coords t) → cfg0.idle 6 (grid0.coords t) = true := by decide +kernel
/-- and its block is not written back there. -/
theorem noFlush0_6_A : ∀ t : Fin cfg0.N, cond0_0 (grid0.coords t) → ¬cond0_1 (grid0.coords t) → (cfg0.win 6).flush t = false := by decide +kernel
/-- At the odd points it is live. -/
theorem liveAt0_6_B : ∀ t : Fin cfg0.N, ¬cond0_0 (grid0.coords t) → cond0_1 (grid0.coords t) → cfg0.idle 6 (grid0.coords t) = false := by decide +kernel

/-! ## The staging memrefs the body is called with -/

/-- One staging buffer of the output window, through which its contents are stated. -/
abbrev VO0_6 : View sig .tc .vmem S1024x128 .f32 := (Memref.whole cc0_stg6_0 : Memref sig .tc .vmem S1024x128 .f32).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The scratch accumulator, a whole scoped buffer of the kernel's own. -/
abbrev scM0_0 : Memref sig .tc .vmem S1024x128 .f32 := Memref.whole cc0_scratch0
abbrev VS0_0 : View sig .tc .vmem S1024x128 .f32 := scM0_0.view

/-- The region's entry invariant with the scratch accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunFirst.lean ====
/-
  The kernel body run at a grid point whose second coordinate is 0 (the accumulator is reset, the output
  block left alone).
-/
import proofs.«112509_j79422535238375_2_alg».proof.Proof.KBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point whose second coordinate is 0: the accumulator is reset to zero and the first
    partial product added; nothing is stored into the output block, which is handed back untouched. On whole
    staging memrefs holding the input blocks `x0 … x5`, the output's buffer at `xi6` and the scratch at anything,
    the body runs to the continuation with the inputs as they were and the scratch with its stores written —
    the stores are the witness the run finds. -/
noncomputable def kernelRun0_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__main_kernel_body i arg2 harg2 arg3 harg3 arg4 harg4 arg5 harg5 arg6 harg6 arg7 harg7 arg8 harg8 arg9 harg9) K } := by
  refine ⟨[], ?_, fun xi6 E K => ?run⟩
  case run =>
    simp only [cc0__main_kernel_body_eq_skeleton]; unfold cc0__main_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.Kernel.Hand

end
-- ==== Proof.KRunLast.lean ====
/-
  The kernel body run at a grid point whose second coordinate is 1 (the accumulation is finished and the
  output block stored).
-/
import proofs.«112509_j79422535238375_2_alg».proof.Proof.KBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point whose second coordinate is 1: the second partial product is added to the accumulator,
    which arrives holding `xs0`, and the finished block — the accumulator scaled row by row plus the bias-like
    product — is stored whole into the output's buffer. -/
noncomputable def kernelRun0_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__main_kernel_body i arg2 harg2 arg3 harg3 arg4 harg4 arg5 harg5 arg6 harg6 arg7 harg7 arg8 harg8 arg9 harg9) K } := by
  refine ⟨?_, ?_, fun E K => ?run⟩
  case run =>
    simp only [cc0__main_kernel_body_eq_skeleton]; unfold cc0__main_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.Kernel.Hand

end
-- ==== Proof.KData.lean ====
/-
  The pipeline's proof data: what each of the two cases leaves in the output's staging buffer and in the
  scratch accumulator, the accumulation point by point over the grid (an even point starts a row block's sum, the
  odd point after it completes it), the invariant that carries the accumulator from one point to the next, the
  body obligation at every point, and the deal of the input matrix's share between the two windows that read it.
-/
import proofs.«112509_j79422535238375_2_alg».proof.Proof.KRunFirst
import proofs.«112509_j79422535238375_2_alg».proof.Proof.KRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parity of a point decides its case -/

theorem c0_of_even (t : Fin cfg0.N) (h : t.val % 2 = 0) : cond0_0 (grid0.coords t) := (hcond0_0 t).mpr h
theorem not_c1_of_even (t : Fin cfg0.N) (h : t.val % 2 = 0) : ¬cond0_1 (grid0.coords t) := fun hc => by
  have := (hcond0_1 t).mp hc; omega
theorem not_c0_of_odd (t : Fin cfg0.N) (h : ¬t.val % 2 = 0) : ¬cond0_0 (grid0.coords t) := fun hc => h ((hcond0_0 t).mp hc)
theorem c1_of_odd (t : Fin cfg0.N) (h : ¬t.val % 2 = 0) : cond0_1 (grid0.coords t) := (hcond0_1 t).mpr (by omega)

/-! ## What each case leaves in the output's buffer and in the accumulator -/

/-- At an even point nothing is stored into the output's buffer (a placeholder nothing consults). -/
def out0_A_6 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- The stores of an even point cover the accumulator. -/
theorem scover0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S1024x128.size (by sl_kernel_rfl) y

/-- What an even point leaves in the accumulator. -/
def sout0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- The one store of an odd point covers the output's block. -/
theorem cover0_B_6 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).1 S1024x128.size (by sl_kernel_rfl) y

/-- What an odd point leaves in the output's buffer. -/
def out0_B_6 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) : Vec F S1024x128 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- The store of an odd point covers the accumulator. -/
theorem scover0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What an odd point leaves in the accumulator. -/
def sout0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-! ## Point by point -/

/-- An even point, on the point's memrefs and input blocks: (output buffer, accumulator). -/
def atA (c : Dev nD) (t : Fin cfg0.N) (h : t.val % 2 = 0) : Vec F S1024x128 .f32 × Vec F S1024x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (c0_of_even t h) (not_c1_of_even t h) (iblk m c 0 t) (iblk m c 1 t) (iblk m c 2 t) (iblk m c 3 t) (iblk m c 4 t) (iblk m c 5 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (c0_of_even t h) (not_c1_of_even t h) (iblk m c 0 t) (iblk m c 1 t) (iblk m c 2 t) (iblk m c 3 t) (iblk m c 4 t) (iblk m c 5 t))

/-- An odd point, over the accumulator `xs0` the even point before it left. -/
def atB (c : Dev nD) (t : Fin cfg0.N) (h : ¬t.val % 2 = 0) (xs0 : Vec F S1024x128 .f32) : Vec F S1024x128 .f32 × Vec F S1024x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (not_c0_of_odd t h) (c1_of_odd t h) (iblk m c 0 t) (iblk m c 1 t) (iblk m c 2 t) (iblk m c 3 t) (iblk m c 4 t) (iblk m c 5 t) xs0,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (not_c0_of_odd t h) (c1_of_odd t h) (iblk m c 0 t) (iblk m c 1 t) (iblk m c 2 t) (iblk m c 3 t) (iblk m c 4 t) (iblk m c 5 t) xs0)

/-- What the output's staging buffer and the accumulator hold after the body at position `n`: an even point's
    results of its own blocks, an odd point's over the accumulator the point before left. -/
def outsAt0 (c : Dev nD) : (n : ℕ) → n < cfg0.N → Vec F S1024x128 .f32 × Vec F S1024x128 .f32
  | 0, hn => atA m c ⟨0, hn⟩ (Nat.zero_mod _)
  | n + 1, hn =>
    if h0 : (n + 1) % 2 = 0 then atA m c ⟨n + 1, hn⟩ h0
    else atB m c ⟨n + 1, hn⟩ h0 (outsAt0 c n (Nat.lt_of_succ_lt hn)).2

theorem outsAt0_A (c : Dev nD) (t : Fin cfg0.N) (h0 : t.val % 2 = 0) : outsAt0 m c t.val t.isLt = atA m c t h0 := by
  obtain ⟨n, hn⟩ := t
  cases n with
  | zero => rfl
  | succ n => exact dif_pos h0

theorem outsAt0_B (c : Dev nD) (t : Fin cfg0.N) (h0 : ¬t.val % 2 = 0) :
    outsAt0 m c t.val t.isLt = atB m c t h0 (outsAt0 m c (t.val - 1) (Nat.lt_of_le_of_lt (Nat.sub_le _ _) t.isLt)).2 := by
  obtain ⟨n, hn⟩ := t
  cases n with
  | zero => exact absurd (Nat.zero_mod _) h0
  | succ n => exact dif_neg h0

/-- The region's invariant before position `n`: at the start the scratch at anything; afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data: the arrays as the region finds them; after the body each input's buffer at its block and the
    output's at `outsAt0`; the invariant `PhiS`; the array the second and fourth windows both read held half by
    each, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨1, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the parity of the point says which case it is in;
    the invariant hands over the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  by_cases h0 : t.val % 2 = 0
  · have hN : t.val < 16 := lt_of_lt_of_eq t.isLt (show cfg0.N = 16 from N_0)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t (c0_of_even t h0) (not_c1_of_even t h0)) (noFlush0_6_A t (c0_of_even t h0) (not_c1_of_even t h0))]
    rw [outsAt0_A m c t h0]
    unfold atA sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ (c0_of_even t h0) (not_c1_of_even t h0) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ (c0_of_even t h0) (not_c1_of_even t h0) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hN : t.val < 16 := lt_of_lt_of_eq t.isLt (show cfg0.N = 16 from N_0)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t (not_c0_of_odd t h0) (c1_of_odd t h0)], after0_6]
    rw [outsAt0_B m c t h0]
    unfold atB out0_B_6 sout0_B_0; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (not_c0_of_odd t h0) (c1_of_odd t h0) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- After the last point the accumulator's contents are forgotten. -/
theorem hout (c : Dev nD) : (dats m 0 c).Φ (Fin.last cfg0.N) ⊢ Pipeline.ΦA spec0 c :=
  Phi_out m c _ (by rw [Fin.val_last]; have : cfg0.N = 16 := N_0; omega)

/-! ## Dealing the shared array between its two windows -/

/-- The six distinct buffers behind the seven windows' arrays, one by one. -/
theorem arrBufs_chain (Φ : Ref sig .tc → sProp 𝕄) :
    bigSep (Finset.univ.image (Pipeline.arrRef spec0)) Φ
      = iprop(Φ main_v19 ∗ Φ main_arg0 ∗ Φ main_arg2 ∗ Φ main_arg3 ∗ Φ main_v29 ∗ Φ main_v30) :=
  bigSep_eq_bigSepL_of_eq [main_v19, main_arg0, main_arg2, main_arg3, main_v29, main_v30] (by decide +kernel) (by decide +kernel) Φ

/-- The distinct buffers behind the windows' arrays, each whole at the region's entry contents, yield every
    window's array at its share: the input matrix, read by the second and the fourth window, is split in two
    halves along its share; every other array goes whole to its one window. -/
theorem hsplit (c : Dev nD) :
    (Pipeline.arrBufs spec0 c (V m c) : sProp 𝕄) ⊢ (dats m 0 c).arrays ((dats m 0 c).arrAt · 0) := by
  have e : (dats m 0 c).arrays ((dats m 0 c).arrAt · 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  have s0 : (dats m 0 c).share 0 = fullShare := rfl
  have s1 : (dats m 0 c).share 1 = fullShare.left := rfl
  have s2 : (dats m 0 c).share 2 = fullShare := rfl
  have s3 : (dats m 0 c).share 3 = fullShare.right := rfl
  have s4 : (dats m 0 c).share 4 = fullShare := rfl
  have s5 : (dats m 0 c).share 5 = fullShare := rfl
  have s6 : (dats m 0 c).share 6 = fullShare := rfl
  unfold Pipeline.arrBufs
  rw [e, arrBufs_chain, bigSep_W0, s0, s1, s2, s3, s4, s5, s6]
  iintro ⟨H19, Hx, H2, H3, H29, H30⟩
  ihave Hx := (pointsTo_share (PosShare.mem_left_op_right fullShare)).1 $$ Hx
  icases Hx with ⟨Hxl, Hxr⟩
  isplitl [H19]; · iexact H19
  isplitl [Hxl]; · iexact Hxl
  isplitl [H2]; · iexact H2
  isplitl [Hxr]; · iexact Hxr
  isplitl [H3]; · iexact H3
  isplitl [H29]; · iexact H29
  iexact H30

end Cert.Kernel.Hand

end
-- ==== Proof.LibSharedFrame.lean ====
/-
  The launch of one pipelined region whose input windows may read ONE array through several block
  specifications, with an invariant tracked from grid point to grid point.

  The library's frame run with a tracking invariant asks that the windows' arrays be pairwise distinct
  buffers, so that each window holds its array whole. When two input windows sit on one array the
  array's full share has to be dealt between them; that deal is the hypothesis `hsplit` here: the
  distinct buffers behind the arrays, each whole at the region's entry contents, yield every window's
  array at the share the proof data gives that window. Everything else is as for distinct arrays:
  the region is entered holding the scratch buffers at some contents and the generator register at
  some state, the invariant is entered from that before the first point and gives it back after the
  last, every array ends at what the write-backs make of the proof data, and every unscoped buffer
  that is no window's array ends as the region found it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedArrays

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a pipeline that prefetches nothing and whose windows may share arrays, with a
    tracking invariant: the staging cells pairwise distinct (`hinj`), the windows laid out as
    `WinFacts₀` says (the arrays need not be distinct), `hsplit` dealing each shared array's share
    among the windows on it. Concludes the library's `FramePost`. -/
theorem θ_run_frame_track_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (V c))
    (hX := fun c => by
      iintro ⟨HU, -, -, -, Hp, -⟩; imodintro
      isplitl [Hp]; · iexists _; iexact Hp
      iexact HU)
    (hin := fun c => by
      exact (show _ ⊢ ΦA (cfg).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (QY := fun c s => ∀ b ∈ restRefsP sig Prefetch.none (cfg).spec, s.mem ((c.tc : Thread nD τ).loc b) = V c b)
    (hY := fun c s' => by
      iintro ⟨-, HU, HSI⟩
      unfold unscopedRestP
      imodintro
      iapply (pointsTo_read_all (restRefsP sig Prefetch.none (cfg).spec) (fun b => (c.tc : Thread nD τ).loc b) (V c) s')
      isplitl [HU] <;> iassumption)
    (hQ := fun s h c => ⟨(h c).1, rest_of_restP Prefetch.none (cfg).spec _ c (V c) s (fun k => k.elim0) (h c).2.1 (h c).2.2⟩)

end SharedArrays

end Pipeline

end Idealize.ShloMosaic

end
-- ==== Proof.KFrame.lean ====
/-
  The run of the whole program — the host lines, then the one pipelined region launched with the input matrix's
  share dealt between the two windows that read it — and the frame: it terminates, faults nowhere, and leaves the
  four argument arrays as it found them.
-/
import proofs.«112509_j79422535238375_2_alg».proof.Proof.KData
import proofs.«112509_j79422535238375_2_alg».proof.Proof.LibSharedFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, and the final state
    has every array of the pipeline at what the write-backs make of the proof data and every other unscoped
    buffer as the region found it. -/
theorem run_main : θ_run defs (onTc (τ := τ) (main (F := F))) (s₀ m ρ) (Pipeline.FramePost cfgs (dats m) 0 (V m)) :=
  Pipeline.θ_run_frame_track_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- info: 'Cert.Kernel.Hand.run_main' depends on axioms: [propext, Classical.choice, Quot.sound] -/
#guard_msgs in #print axioms run_main

/-- The argument arrays end unchanged: the input matrix, the two weight matrices (input windows: never written
    back) and the edge list (no window's array: it bypasses the region), none written by a host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c)))⟩) (run_main m ρ)

end Cert.Kernel.Hand

end
-- ==== Proof.KIBase.lean ====
/-
  What the two runs of the kernel body and the proof data share: the buffers as the region finds them
  after the host lines, each window's block at a grid point, the two branch conditions in closed form
  over the grid (the second coordinate is 0 at the even points and 1 at the odd ones), where the output
  window is idle, and the staging memrefs the pipeline calls the body with.
-/
import proofs.«112509_j79422535238375_2_alg».proof.Proof.Gen.KernelIdeal.Launch
import proofs.«112509_j79422535238375_2_alg».proof.Proof.Gen.KernelIdeal.Skeleton
import proofs.«112509_j79422535238375_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The TensorCore's buffers as the region finds them: the launch contents after the three stretches of
    host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program up to the region: the three stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- The first conditional (the accumulator is reset): the second grid coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (the output block is finished and stored): the second grid coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- At the even points the output window is idle: nothing is stored into it, -/
theorem idleAt0_6_A : ∀ t : Fin cfg0.N, cond0_0 (grid0.coords t) → ¬cond0_1 (grid0.coords t) → cfg0.idle 6 (grid0.coords t) = true := by decide +kernel
/-- and its block is not written back there. -/
theorem noFlush0_6_A : ∀ t : Fin cfg0.N, cond0_0 (grid0.coords t) → ¬cond0_1 (grid0.coords t) → (cfg0.win 6).flush t = false := by decide +kernel
/-- At the odd points it is live. -/
theorem liveAt0_6_B : ∀ t : Fin cfg0.N, ¬cond0_0 (grid0.coords t) → cond0_1 (grid0.coords t) → cfg0.idle 6 (grid0.coords t) = false := by decide +kernel

/-! ## The staging memrefs the body is called with -/

/-- One staging buffer of the output window, through which its contents are stated. -/
abbrev VO0_6 : View sig .tc .vmem S1024x128 .f32 := (Memref.whole cc0_stg6_0 : Memref sig .tc .vmem S1024x128 .f32).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The scratch accumulator, a whole scoped buffer of the kernel's own. -/
abbrev scM0_0 : Memref sig .tc .vmem S1024x128 .f32 := Memref.whole cc0_scratch0
abbrev VS0_0 : View sig .tc .vmem S1024x128 .f32 := scM0_0.view

/-- The region's entry invariant with the scratch accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunFirst.lean ====
/-
  The kernel body run at a grid point whose second coordinate is 0 (the accumulator is reset, the output
  block left alone).
-/
import proofs.«112509_j79422535238375_2_alg».proof.Proof.KIBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point whose second coordinate is 0: the accumulator is reset to zero and the first
    partial product added; nothing is stored into the output block, which is handed back untouched. On whole
    staging memrefs holding the input blocks `x0 … x5`, the output's buffer at `xi6` and the scratch at anything,
    the body runs to the continuation with the inputs as they were and the scratch with its stores written —
    the stores are the witness the run finds. -/
noncomputable def kernelRun0_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) :
    Σ' (L6 : List (View.Piece (Elt F) S1024x128 .f32)), { LS0 : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0__main_kernel_body i arg2 harg2 arg3 harg3 arg4 harg4 arg5 harg5 arg6 harg6 arg7 harg7 arg8 harg8 arg9 harg9) K } := by
  refine ⟨[], ?_, fun xi6 E K => ?run⟩
  case run =>
    simp only [cc0__main_kernel_body_eq_skeleton]; unfold cc0__main_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS0

end Cert.KernelIdeal.Hand

end
-- ==== Proof.KIRunLast.lean ====
/-
  The kernel body run at a grid point whose second coordinate is 1 (the accumulation is finished and the
  output block stored).
-/
import proofs.«112509_j79422535238375_2_alg».proof.Proof.KIBase
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point whose second coordinate is 1: the second partial product is added to the accumulator,
    which arrives holding `xs0`, and the finished block — the accumulator scaled row by row plus the bias-like
    product — is stored whole into the output's buffer. -/
noncomputable def kernelRun0_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) :
    Σ' (L6 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0__main_kernel_body i arg2 harg2 arg3 harg3 arg4 harg4 arg5 harg5 arg6 harg6 arg7 harg7 arg8 harg8 arg9 harg9) K } := by
  refine ⟨?_, ?_, fun E K => ?run⟩
  case run =>
    simp only [cc0__main_kernel_body_eq_skeleton]; unfold cc0__main_kernel_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS0

end Cert.KernelIdeal.Hand

end
-- ==== Proof.KIData.lean ====
/-
  The pipeline's proof data: what each of the two cases leaves in the output's staging buffer and in the
  scratch accumulator, the accumulation point by point over the grid (an even point starts a row block's sum, the
  odd point after it completes it), the invariant that carries the accumulator from one point to the next, the
  body obligation at every point, and the deal of the input matrix's share between the two windows that read it.
-/
import proofs.«112509_j79422535238375_2_alg».proof.Proof.KIRunFirst
import proofs.«112509_j79422535238375_2_alg».proof.Proof.KIRunLast
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parity of a point decides its case -/

theorem c0_of_even (t : Fin cfg0.N) (h : t.val % 2 = 0) : cond0_0 (grid0.coords t) := (hcond0_0 t).mpr h
theorem not_c1_of_even (t : Fin cfg0.N) (h : t.val % 2 = 0) : ¬cond0_1 (grid0.coords t) := fun hc => by
  have := (hcond0_1 t).mp hc; omega
theorem not_c0_of_odd (t : Fin cfg0.N) (h : ¬t.val % 2 = 0) : ¬cond0_0 (grid0.coords t) := fun hc => h ((hcond0_0 t).mp hc)
theorem c1_of_odd (t : Fin cfg0.N) (h : ¬t.val % 2 = 0) : cond0_1 (grid0.coords t) := (hcond0_1 t).mpr (by omega)

/-! ## What each case leaves in the output's buffer and in the accumulator -/

/-- At an even point nothing is stored into the output's buffer (a placeholder nothing consults). -/
def out0_A_6 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 x0 x1 x2 x3 x4 x5).1)

/-- The stores of an even point cover the accumulator. -/
theorem scover0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4 x5).2.1 S1024x128.size (by sl_kernel_rfl) y

/-- What an even point leaves in the accumulator. -/
def sout0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4 x5).2.1)

/-- The one store of an odd point covers the output's block. -/
theorem cover0_B_6 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).1 S1024x128.size (by sl_kernel_rfl) y

/-- What an odd point leaves in the output's buffer. -/
def out0_B_6 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) : Vec F S1024x128 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 x0 x1 x2 x3 x4 x5 xs0).1)

/-- The store of an odd point covers the accumulator. -/
theorem scover0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 x5 xs0).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 x5 xs0).2.1 S1024x128.size (by sl_kernel_rfl) y

/-- What an odd point leaves in the accumulator. -/
def sout0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 x5 xs0).2.1)

/-! ## Point by point -/

/-- An even point, on the point's memrefs and input blocks: (output buffer, accumulator). -/
def atA (c : Dev nD) (t : Fin cfg0.N) (h : t.val % 2 = 0) : Vec F S1024x128 .f32 × Vec F S1024x128 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (c0_of_even t h) (not_c1_of_even t h) (iblk m c 0 t) (iblk m c 1 t) (iblk m c 2 t) (iblk m c 3 t) (iblk m c 4 t) (iblk m c 5 t),
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (c0_of_even t h) (not_c1_of_even t h) (iblk m c 0 t) (iblk m c 1 t) (iblk m c 2 t) (iblk m c 3 t) (iblk m c 4 t) (iblk m c 5 t))

/-- An odd point, over the accumulator `xs0` the even point before it left. -/
def atB (c : Dev nD) (t : Fin cfg0.N) (h : ¬t.val % 2 = 0) (xs0 : Vec F S1024x128 .f32) : Vec F S1024x128 .f32 × Vec F S1024x128 .f32 :=
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (not_c0_of_odd t h) (c1_of_odd t h) (iblk m c 0 t) (iblk m c 1 t) (iblk m c 2 t) (iblk m c 3 t) (iblk m c 4 t) (iblk m c 5 t) xs0,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (not_c0_of_odd t h) (c1_of_odd t h) (iblk m c 0 t) (iblk m c 1 t) (iblk m c 2 t) (iblk m c 3 t) (iblk m c 4 t) (iblk m c 5 t) xs0)

/-- What the output's staging buffer and the accumulator hold after the body at position `n`: an even point's
    results of its own blocks, an odd point's over the accumulator the point before left. -/
def outsAt0 (c : Dev nD) : (n : ℕ) → n < cfg0.N → Vec F S1024x128 .f32 × Vec F S1024x128 .f32
  | 0, hn => atA m c ⟨0, hn⟩ (Nat.zero_mod _)
  | n + 1, hn =>
    if h0 : (n + 1) % 2 = 0 then atA m c ⟨n + 1, hn⟩ h0
    else atB m c ⟨n + 1, hn⟩ h0 (outsAt0 c n (Nat.lt_of_succ_lt hn)).2

theorem outsAt0_A (c : Dev nD) (t : Fin cfg0.N) (h0 : t.val % 2 = 0) : outsAt0 m c t.val t.isLt = atA m c t h0 := by
  obtain ⟨n, hn⟩ := t
  cases n with
  | zero => rfl
  | succ n => exact dif_pos h0

theorem outsAt0_B (c : Dev nD) (t : Fin cfg0.N) (h0 : ¬t.val % 2 = 0) :
    outsAt0 m c t.val t.isLt = atB m c t h0 (outsAt0 m c (t.val - 1) (Nat.lt_of_le_of_lt (Nat.sub_le _ _) t.isLt)).2 := by
  obtain ⟨n, hn⟩ := t
  cases n with
  | zero => exact absurd (Nat.zero_mod _) h0
  | succ n => exact dif_neg h0

/-- The region's invariant before position `n`: at the start the scratch at anything; afterwards the accumulator
    at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The proof data: the arrays as the region finds them; after the body each input's buffer at its block and the
    output's at `outsAt0`; the invariant `PhiS`; the array the second and fourth windows both read held half by
    each, every other array whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q w := match w with
    | ⟨1, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' buffers hold their blocks; the parity of the point says which case it is in;
    the invariant hands over the accumulator at what the point before left (at anything at the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  by_cases h0 : t.val % 2 = 0
  · have hN : t.val < 16 := lt_of_lt_of_eq t.isLt (show cfg0.N = 16 from N_0)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [Dat.leavesExact_idle (dats m 0 c) 6 t (idleAt0_6_A t (c0_of_even t h0) (not_c1_of_even t h0)) (noFlush0_6_A t (c0_of_even t h0) (not_c1_of_even t h0))]
    rw [outsAt0_A m c t h0]
    unfold atA sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ (c0_of_even t h0) (not_c1_of_even t h0) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ (c0_of_even t h0) (not_c1_of_even t h0) (iblk m c 0 t) (iblk m c 1 t) (iblk m c 2 t) (iblk m c 3 t) (iblk m c 4 t) (iblk m c 5 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hN : t.val < 16 := lt_of_lt_of_eq t.isLt (show cfg0.N = 16 from N_0)
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6_B t (not_c0_of_odd t h0) (c1_of_odd t h0)], after0_6]
    rw [outsAt0_B m c t h0]
    unfold atB out0_B_6 sout0_B_0; (try dsimp only)
    have hz : t.val ≠ 0 := fun h => h0 (by rw [h])
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ (not_c0_of_odd t h0) (c1_of_odd t h0) (iblk m c 0 t) (iblk m c 1 t) (iblk m c 2 t) (iblk m c 3 t) (iblk m c 4 t) (iblk m c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    iintro ⟨H0, H1, H2, H3, H4, H5, ⟨%e6, H6⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B_6 c _ _ _ _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- After the last point the accumulator's contents are forgotten. -/
theorem hout (c : Dev nD) : (dats m 0 c).Φ (Fin.last cfg0.N) ⊢ Pipeline.ΦA spec0 c :=
  Phi_out m c _ (by rw [Fin.val_last]; have : cfg0.N = 16 := N_0; omega)

/-! ## Dealing the shared array between its two windows -/

/-- The six distinct buffers behind the seven windows' arrays, one by one. -/
theorem arrBufs_chain (Φ : Ref sig .tc → sProp 𝕄) :
    bigSep (Finset.univ.image (Pipeline.arrRef spec0)) Φ
      = iprop(Φ main_v19 ∗ Φ main_arg0 ∗ Φ main_arg2 ∗ Φ main_arg3 ∗ Φ main_v29 ∗ Φ main_v30) :=
  bigSep_eq_bigSepL_of_eq [main_v19, main_arg0, main_arg2, main_arg3, main_v29, main_v30] (by decide +kernel) (by decide +kernel) Φ

/-- The distinct buffers behind the windows' arrays, each whole at the region's entry contents, yield every
    window's array at its share: the input matrix, read by the second and the fourth window, is split in two
    halves along its share; every other array goes whole to its one window. -/
theorem hsplit (c : Dev nD) :
    (Pipeline.arrBufs spec0 c (V m c) : sProp 𝕄) ⊢ (dats m 0 c).arrays ((dats m 0 c).arrAt · 0) := by
  have e : (dats m 0 c).arrays ((dats m 0 c).arrAt · 0)
      = bigSep Finset.univ fun w : Fin cfg0.W =>
          (((c.tc : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  have s0 : (dats m 0 c).share 0 = fullShare := rfl
  have s1 : (dats m 0 c).share 1 = fullShare.left := rfl
  have s2 : (dats m 0 c).share 2 = fullShare := rfl
  have s3 : (dats m 0 c).share 3 = fullShare.right := rfl
  have s4 : (dats m 0 c).share 4 = fullShare := rfl
  have s5 : (dats m 0 c).share 5 = fullShare := rfl
  have s6 : (dats m 0 c).share 6 = fullShare := rfl
  unfold Pipeline.arrBufs
  rw [e, arrBufs_chain, bigSep_W0, s0, s1, s2, s3, s4, s5, s6]
  iintro ⟨H19, Hx, H2, H3, H29, H30⟩
  ihave Hx := (pointsTo_share (PosShare.mem_left_op_right fullShare)).1 $$ Hx
  icases Hx with ⟨Hxl, Hxr⟩
  isplitl [H19]; · iexact H19
  isplitl [Hxl]; · iexact Hxl
  isplitl [H2]; · iexact H2
  isplitl [Hxr]; · iexact Hxr
  isplitl [H3]; · iexact H3
  isplitl [H29]; · iexact H29
  iexact H30

end Cert.KernelIdeal.Hand

end
-- ==== Proof.KIFrame.lean ====
/-
  The run of the whole program — the host lines, then the one pipelined region launched with the input matrix's
  share dealt between the two windows that read it — and the frame: it terminates, faults nowhere, and leaves the
  four argument arrays as it found them.
-/
import proofs.«112509_j79422535238375_2_alg».proof.Proof.KIData
import proofs.«112509_j79422535238375_2_alg».proof.Proof.LibSharedFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, and the final state
    has every array of the pipeline at what the write-backs make of the proof data and every other unscoped
    buffer as the region found it. -/
theorem run_main : θ_run defs (onTc (τ := τ) (main (F := F))) (s₀ m ρ) (Pipeline.FramePost cfgs (dats m) 0 (V m)) :=
  Pipeline.θ_run_frame_track_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := hsplit m) (hin := hin m) (hout := hout m)

/-- info: 'Cert.KernelIdeal.Hand.run_main' depends on axioms: [propext, Classical.choice, Quot.sound] -/
#guard_msgs in #print axioms run_main

/-- The argument arrays end unchanged: the input matrix, the two weight matrices (input windows: never written
    back) and the edge list (no window's array: it bypasses the region), none written by a host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c)))⟩) (run_main m ρ)

end Cert.KernelIdeal.Hand

end
-- ==== Proof.KIPieces.lean ====
/-
  What the stores the two runs found amount to, as the body's named values of the blocks it loaded: an even point
  leaves in the accumulator the first partial product over the reset value; an odd point leaves there its partial
  product over what it found, and in the output's buffer the finished block computed from that sum.
-/
import proofs.«112509_j79422535238375_2_alg».proof.Proof.KIData
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- An even point leaves in the accumulator the first partial product added to the reset value. -/
theorem sout_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : cond0_0 i) (hc1 : ¬cond0_1 i)
    (x0 : Vec F S1024x4096 .bf16) (x1 : Vec F S4096x128 .f32) (x2 : Vec F S128x128 .f32) (x3 : Vec F S1024x128 .f32) (x4 : Vec F S128x128 .f32) (x5 : Vec F S1024x1 .f32) :
    sout0_A_0 c i arg2 harg2 arg3 harg3 arg4 harg4 arg5 harg5 arg6 harg6 arg7 harg7 arg8 harg8 arg9 harg9 hc0 hc1 x0 x1 x2 x3 x4 x5 = k0_pay2 x1 x2 x0 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, View.ld_unit_zero (S := S4096x128) hz, View.ld_unit_zero (S := S128x128) hz, View.ld_unit_zero (S := S1024x4096) hz, View.ld_unit_zero (S := S1024x128) hz]

/-- An odd point leaves in the accumulator its partial product added to what it found there. -/
theorem sout_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) :
    sout0_B_0 c i arg2 harg2 arg3 harg3 arg4 harg4 arg5 harg5 arg6 harg6 arg7 harg7 arg8 harg8 arg9 harg9 hc0 hc1 x0 x1 x2 x3 x4 x5 xs0 = k0_pay2 x1 x2 x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg9.read_unread, View.ld_unit_zero (S := S4096x128) hz, View.ld_unit_zero (S := S128x128) hz, View.ld_unit_zero (S := S1024x4096) hz, View.ld_unit_zero (S := S1024x128) hz]

/-- An odd point leaves in the output's buffer the finished block: the completed accumulator scaled and shifted. -/
theorem out_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S128x128 .f32) (harg4 : arg4.IsWhole) (arg5 : Memref sig .tc .vmem S1024x128 .f32) (harg5 : arg5.IsWhole) (arg6 : Memref sig .tc .vmem S128x128 .f32) (harg6 : arg6.IsWhole) (arg7 : Memref sig .tc .vmem S1024x1 .f32) (harg7 : arg7.IsWhole) (arg8 : Memref sig .tc .vmem S1024x128 .f32) (harg8 : arg8.IsWhole) (arg9 : Memref sig .tc .vmem S1024x128 .f32) (harg9 : arg9.IsWhole) (hc0 : ¬cond0_0 i) (hc1 : cond0_1 i)
    (x0 : Vec F S1024x4096 .bf16) (x1 : Vec F S4096x128 .f32) (x2 : Vec F S128x128 .f32) (x3 : Vec F S1024x128 .f32) (x4 : Vec F S128x128 .f32) (x5 : Vec F S1024x1 .f32) (xs0 : Vec F S1024x128 .f32) :
    out0_B_6 c i arg2 harg2 arg3 harg3 arg4 harg4 arg5 harg5 arg6 harg6 arg7 harg7 arg8 harg8 arg9 harg9 hc0 hc1 x0 x1 x2 x3 x4 x5 xs0 = k0_pay3 x3 x4 (k0_pay2 x1 x2 x0 xs0) x5 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, View.readCov_unit_zero (S := S1024x128) _ hz, harg2.read_unread, harg3.read_unread, harg4.read_unread, harg5.read_unread, harg6.read_unread, harg7.read_unread, harg9.read_unread, View.ld_unit_zero (S := S4096x128) hz, View.ld_unit_zero (S := S128x128) hz, View.ld_unit_zero (S := S1024x4096) hz, View.ld_unit_zero (S := S1024x128) hz, View.ld_unit_zero (S := S1024x1) hz]

set_option maxHeartbeats 4000000 in
/-- What an odd point writes back, in closed form over the blocks of that point and of the even point before it. -/
theorem out_odd (c : Dev nD) (t t' : Fin cfg0.N) (ht : t'.val + 1 = t.val) (h0 : ¬t.val % 2 = 0) :
    (outsAt0 m c t.val t.isLt).1
      = k0_pay3 (iblk m c 3 t) (iblk m c 4 t)
          (k0_pay2 (iblk m c 1 t) (iblk m c 2 t) (iblk m c 0 t)
            (k0_pay2 (iblk m c 1 t') (iblk m c 2 t') (iblk m c 0 t') (k0_pay1 (F := F))))
          (iblk m c 5 t) := by
  have h0' : t'.val % 2 = 0 := by omega
  have e : (outsAt0 m c (t.val - 1) (Nat.lt_of_le_of_lt (Nat.sub_le _ _) t.isLt)).2
      = k0_pay2 (iblk m c 1 t') (iblk m c 2 t') (iblk m c 0 t') (k0_pay1 (F := F)) := by
    have hv : t.val - 1 = t'.val := by omega
    have := outsAt0_A m c t' h0'
    rw [show outsAt0 m c (t.val - 1) (Nat.lt_of_le_of_lt (Nat.sub_le _ _) t.isLt) = outsAt0 m c t'.val t'.isLt from by
      congr 1]
    rw [this]
    unfold atA
    exact sout_A (F := F) c (grid0.coords t') (ms0_0 t') (hs0_0 t') (ms0_1 t') (hs0_1 t') (ms0_2 t') (hs0_2 t') (ms0_3 t') (hs0_3 t') (ms0_4 t') (hs0_4 t') (ms0_5 t') (hs0_5 t') (ms0_6 t') (hs0_6 t') scM0_0 (Memref.isWhole_whole _) (c0_of_even t' h0') (not_c1_of_even t' h0') (iblk m c 0 t') (iblk m c 1 t') (iblk m c 2 t') (iblk m c 3 t') (iblk m c 4 t') (iblk m c 5 t')
  rw [outsAt0_B m c t h0, e]
  unfold atB
  exact out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (not_c0_of_odd t h0) (c1_of_odd t h0) (iblk m c 0 t) (iblk m c 1 t) (iblk m c 2 t) (iblk m c 3 t) (iblk m c 4 t) (iblk m c 5 t)
    (k0_pay2 (iblk m c 1 t') (iblk m c 2 t') (iblk m c 0 t') (k0_pay1 (F := F)))

end Cert.KernelIdeal.Hand

end
-- ==== Proof.LibMatmul.lean ====
/-
  A plain matrix product read at an index: for the dimension numbers that contract the left operand's second
  axis with the right operand's first (rows × inner times inner × columns, no batch axis), a product into the
  zero accumulator is, at `(i, j)`, the sum over the inner coordinate `k` of `lhs (i, k) · rhs (k, j)`.
-/
import Idealize.ShloMosaic.PureOps.Ideal.Laws
import Idealize.ShloMosaic.Lib.ValueIdx

noncomputable section

namespace Idealize.ShloMosaic.ValueIdx

/-- The plain product into the zero accumulator, at `(i, j)`, as a sum over the inner coordinate. -/
theorem matmul_plain_zero_apply (M K N : ℕ) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

end Idealize.ShloMosaic.ValueIdx

end
-- ==== Proof.LibKeepdims.lean ====
/-
  What every row-wise reduction with kept dimensions needs, read at an index: a vector of `a` entries cast to
  a column `[a, 1]`; a column `[a, 1]` broadcast along a new second axis to `[a, b]`; and the sum and the
  maximum of the rows of an `[a, b]` matrix, at row `r`, as a sum and a fold of `max` over the `b` entries of
  that row.
-/
import Idealize.ShloMosaic.Lib.Pipeline.Value
import Idealize.ShloMosaic.Lib.ValueIdx
import Idealize.ShloMosaic.PureOps.Ideal.Laws

noncomputable section

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `r` of an `[a, b]` matrix with coordinate `k` of the reduced second axis put back is `(r, k)`. -/
theorem lift_rows {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- The sum over the second axis of an `[a, b]` matrix, at row `r`, is the sum of that row's `b` entries. -/
theorem multiReduction_add_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_rows h r k)

/-- The maximum over the second axis of an `[a, b]` matrix, at row `r`, is the fold of `max` from the
    accumulator's value over that row's `b` entries. -/
theorem multiReduction_maximumf_rows_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (fun f => Finset.fold max (Ideal.ofBits φ acc) f Finset.univ) (funext fun k => congrArg src (lift_rows h r k))

end Idealize.ShloMosaic.ValueIdx

end
-- ==== Proof.KIPayload.lean ====
/-
  The three values the kernel body stores, read at an index over the extended reals.

  The reset value is zero everywhere. The accumulation step adds to the accumulator, at row `p` and column `q`, the sum
  over the `4096` columns `k` of the adjacency block of `A (p, k)` times the `k`-th row of the projected features,
  which is itself the sum over the `128` input features `j` of `X (k, j) · W (q, j)` (the weight enters transposed).
  The finishing step scales the accumulator's row `p` by that row's one entry of the reciprocal-degree column and adds
  the sum over `j` of `Xi (p, j) · B (q, j)`. A change of float format is the identity here, and a product into
  the zero accumulator is the plain sum.
-/
import proofs.«112509_j79422535238375_2_alg».proof.Proof.Gen.KernelIdeal.Skeleton
import proofs.«112509_j79422535238375_2_alg».proof.Proof.LibMatmul
import proofs.«112509_j79422535238375_2_alg».proof.Proof.LibKeepdims
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The three contractions are plain matrix products: rows × inner times inner × columns. -/
theorem dotY : dot_S4096x128_S128x128_S4096x128_1_0_0_1_n_n = DotDims.plain 4096 128 128 := rfl
theorem dotAY : dot_S1024x4096_S4096x128_S1024x128_1_0_0_1_n_n = DotDims.plain 1024 4096 128 := rfl
theorem dotXB : dot_S1024x128_S128x128_S1024x128_1_0_0_1_n_n = DotDims.plain 1024 128 128 := rfl

/-- A square matrix transposed reads, at `(j, q)`, the operand at `(q, j)`. -/
theorem transpose_sq_apply (v : FVec Ideal S128x128 .bf16) (j q : Fin 128) :
    transpose S128x128 [1, 0] v transposes_S128x128_p1_0_S128x128 (ix2 j q) = v (ix2 q j) :=
  transpose_apply [1, 0] v transposes_S128x128_p1_0_S128x128 (ix2 j q) (ix2 q j) (fun b => match b with
    | ⟨0, _⟩ => rfl
    | ⟨1, _⟩ => rfl)

/-- The reset value is zero. -/
theorem pay1_apply (p : Fin 1024) (q : Fin 128) : k0_pay1 (F := Ideal) (ix2 p q) = 0 := by
  unfold k0_pay1
  rw [shapeCast_self]
  show Ideal.ofBits .f32 0x00000000#32 = 0
  exact Ideal.ofBits_zero_f32

/-- The accumulation step at `(p, q)`. -/
theorem pay2_apply (X : Vec Ideal S4096x128 .f32) (W : Vec Ideal S128x128 .f32) (A : Vec Ideal S1024x4096 .bf16)
    (acc : Vec Ideal S1024x128 .f32) (p : Fin 1024) (q : Fin 128) :
    k0_pay2 X W A acc (ix2 p q)
      = acc (ix2 p q) + ∑ k : Fin 4096, A (ix2 p k) * ∑ j : Fin 128, X (ix2 k j) * W (ix2 q j) := by
  unfold k0_pay2
  dsimp only
  simp only [shapeCast_self, matmul]
  rw [addf_apply, dotAY, dotY, matmul_plain_zero_apply]
  congr 1
  refine Finset.sum_congr rfl fun k _ => ?_
  rw [truncf_apply, matmul_plain_zero_apply]
  congr 1
  refine Finset.sum_congr rfl fun j _ => ?_
  rw [truncf_apply, transpose_sq_apply, truncf_apply]

/-- The finishing step at `(p, q)`. -/
theorem pay3_apply (Xi : Vec Ideal S1024x128 .f32) (B : Vec Ideal S128x128 .f32) (acc : Vec Ideal S1024x128 .f32)
    (dinv : Vec Ideal S1024x1 .f32) (p : Fin 1024) (q : Fin 128) :
    k0_pay3 Xi B acc dinv (ix2 p q)
      = acc (ix2 p q) * dinv (ix2 p (0 : Fin 1)) + ∑ j : Fin 128, Xi (ix2 p j) * B (ix2 q j) := by
  unfold k0_pay3
  dsimp only
  simp only [shapeCast_self, matmul]
  rw [addf_apply, mulf_apply, broadcastTo_a1_ab_apply, dotXB, matmul_plain_zero_apply]
  congr 1
  refine Finset.sum_congr rfl fun j _ => ?_
  rw [truncf_apply, transpose_sq_apply, truncf_apply]

end Cert.KernelIdeal.Payload

end
-- ==== Proof.KIBlockIdx.lean ====
/-
  The printed index maps, decided over the sixteen grid points.

  At the odd point `t = 2 i + 1` the output window is on row block `i`; the adjacency window is on block
  `(i, 1)` and, at the even point before, on `(i, 0)`; the window over the features to be projected is on rows
  `4096 …` and, before, on rows `0 …`; the two weight windows never move; the second input window and the
  reciprocal-degree window are on row block `i`. And every row block `0 … 7` is some odd point's.
-/
import proofs.«112509_j79422535238375_2_alg».proof.Proof.Gen.KernelIdeal.Points

set_option Elab.async false

noncomputable section

namespace Cert.KernelIdeal.Hand

open Cert.KernelIdeal Cert.KernelIdeal.Gen Idealize.ShloMosaic

/-- The point before `t` (the same point at `t = 0`, which is never asked). -/
abbrev prevPt (t : Fin cfg0.N) : Fin cfg0.N := ⟨t.val - 1, lt_of_le_of_lt (Nat.sub_le _ _) t.isLt⟩

theorem idx_facts : ∀ t : Fin cfg0.N, t.val % 2 = 1 →
    win0_6.index t (0 : Fin 2) ≤ 7 ∧ win0_6.index t (1 : Fin 2) = 0
    ∧ win0_0.index t (0 : Fin 2) = win0_6.index t (0 : Fin 2) ∧ win0_0.index t (1 : Fin 2) = 1
    ∧ win0_0.index (prevPt t) (0 : Fin 2) = win0_6.index t (0 : Fin 2) ∧ win0_0.index (prevPt t) (1 : Fin 2) = 0
    ∧ win0_1.index t (0 : Fin 2) = 1 ∧ win0_1.index t (1 : Fin 2) = 0
    ∧ win0_1.index (prevPt t) (0 : Fin 2) = 0 ∧ win0_1.index (prevPt t) (1 : Fin 2) = 0
    ∧ win0_2.index t (0 : Fin 2) = 0 ∧ win0_2.index t (1 : Fin 2) = 0
    ∧ win0_2.index (prevPt t) (0 : Fin 2) = 0 ∧ win0_2.index (prevPt t) (1 : Fin 2) = 0
    ∧ win0_3.index t (0 : Fin 2) = win0_6.index t (0 : Fin 2) ∧ win0_3.index t (1 : Fin 2) = 0
    ∧ win0_4.index t (0 : Fin 2) = 0 ∧ win0_4.index t (1 : Fin 2) = 0
    ∧ win0_5.index t (0 : Fin 2) = win0_6.index t (0 : Fin 2) ∧ win0_5.index t (1 : Fin 2) = 0 :=
  (by decide +kernel : ∀ t : Fin grid0.N, _)

theorem idx_onto : ∀ q0 : Fin 8, ∃ t : Fin cfg0.N, (cfg0.win 6).flush t = true ∧ win0_6.index t = ![q0.val, 0] :=
  (by decide +kernel : ∀ q0 : Fin 8, ∃ t : Fin grid0.N, win0_6.flush t = true ∧ win0_6.index t = ![q0.val, 0])

end Cert.KernelIdeal.Hand

end
-- ==== Proof.KIBlocks.lean ====
/-
  From blocks to the array: the result array after the run, as one function of the arrays the region finds.

  The grid point `t = 2 i + 1` writes back row block `i` of the result. What it writes is computed from the blocks of
  that point and of the even point `2 i` before it: the adjacency's block `(i, 0)` against the first `4096` rows of
  the projected features, then its block `(i, 1)` against the last `4096`, the two partial products added in that
  order onto zero; the sum's row scaled by the row's reciprocal degree; the second product `x · Bᵀ` of row block
  `i` added. A block's element `(p, k)` is the array's element (block index × block size + `p`, …), so each block
  read is an array read — whatever the arrays hold — and the eight row blocks written at the eight odd points tile
  the whole array.
-/
import proofs.«112509_j79422535238375_2_alg».proof.Proof.KIPieces
import proofs.«112509_j79422535238375_2_alg».proof.Proof.KIPayload
import proofs.«112509_j79422535238375_2_alg».proof.Proof.KIBlockIdx
import Idealize.ShloMosaic.Lib.Pipeline.Value

set_option maxRecDepth 16384

noncomputable section

namespace Cert.KernelIdeal.Hand

open Cert.KernelIdeal Cert.KernelIdeal.Gen Cert.KernelIdeal.Payload
open Idealize.ShloMosaic Idealize.ShloMosaic.TcCoe Idealize.ShloMosaic.ValueIdx
open Idealize.SL Idealize.SL.Sem
open Idealize.ShloMosaic.Pipeline (Dat Cfg Window)

/-- Column `k` of the first half of the adjacency's columns, and of the second half. -/
abbrev lo (k : Fin 4096) : Fin 8192 := ⟨k.val, by omega⟩
abbrev hi (k : Fin 4096) : Fin 8192 := ⟨4096 + k.val, by omega⟩

/-- The result at row `r` and column `q`: the two half-contractions added onto zero, scaled, plus the second product. -/
def outAt (VA : (⟨S8192x8192, .bf16⟩ : BufTy).Contents (Elt Ideal)) (Vx : (⟨S8192x128, .f32⟩ : BufTy).Contents (Elt Ideal))
    (VW VB : (⟨S128x128, .f32⟩ : BufTy).Contents (Elt Ideal)) (Vd : (⟨S8192x1, .f32⟩ : BufTy).Contents (Elt Ideal))
    (r : Fin 8192) (q : Fin 128) : EReal :=
  ((0 + ∑ k : Fin 4096, VA (ix2 r (lo k)) * ∑ j : Fin 128, Vx (ix2 (lo k) j) * VW (ix2 q j))
      + ∑ k : Fin 4096, VA (ix2 r (hi k)) * ∑ j : Fin 128, Vx (ix2 (hi k) j) * VW (ix2 q j)) * Vd (ix2 r (0 : Fin 1))
    + ∑ j : Fin 128, Vx (ix2 r j) * VB (ix2 q j)

/-- The result array. -/
def outFn (VA : (⟨S8192x8192, .bf16⟩ : BufTy).Contents (Elt Ideal)) (Vx : (⟨S8192x128, .f32⟩ : BufTy).Contents (Elt Ideal))
    (VW VB : (⟨S128x128, .f32⟩ : BufTy).Contents (Elt Ideal)) (Vd : (⟨S8192x1, .f32⟩ : BufTy).Contents (Elt Ideal)) :
    (⟨S8192x128, .f32⟩ : BufTy).Contents (Elt Ideal) :=
  fun i => outAt VA Vx VW VB Vd ⟨(i 0).val, (i 0).isLt⟩ ⟨(i 1).val, (i 1).isLt⟩

/-- What an odd point stores at `(p, q)` of its block, over the blocks it and the point before it loaded. -/
theorem point_value (X1 X1' : Vec Ideal S4096x128 .f32) (W W' : Vec Ideal S128x128 .f32) (A1 A1' : Vec Ideal S1024x4096 .bf16)
    (Xi : Vec Ideal S1024x128 .f32) (B : Vec Ideal S128x128 .f32) (D : Vec Ideal S1024x1 .f32) (p : Fin 1024) (q : Fin 128) :
    k0_pay3 Xi B (k0_pay2 X1 W A1 (k0_pay2 X1' W' A1' (k0_pay1 (F := Ideal)))) D (ix2 p q)
      = ((0 + ∑ k : Fin 4096, A1' (ix2 p k) * ∑ j : Fin 128, X1' (ix2 k j) * W' (ix2 q j))
          + ∑ k : Fin 4096, A1 (ix2 p k) * ∑ j : Fin 128, X1 (ix2 k j) * W (ix2 q j)) * D (ix2 p (0 : Fin 1))
        + ∑ j : Fin 128, Xi (ix2 p j) * B (ix2 q j) := by
  rw [pay3_apply, pay2_apply, pay2_apply, pay1_apply]

/-! ## A block's element is an array's element, whatever the arrays hold -/

section AnyContents

variable (c : Dev nD) (VV : (b : Ref sig .tc) → Buf (Elt Ideal) ((c : Thread nD τ).loc b))

/-- Window `w`'s block at point `t` of the arrays `VV`. -/
def blkOf (w : Fin cfg0.W) (t : Fin cfg0.N) : ((cfg0.win w).xblock (cfg0.grid.coords t)).Idx → Elt Ideal (cfg0.win w).elt :=
  ((cfg0.win w).blk t).view.read (Elt Ideal) (VV (Pipeline.arrRef spec0 w))

theorem blk0_apply (t : Fin cfg0.N) (y : S1024x4096.Idx) (I : S8192x8192.Idx)
    (h0 : (I 0).val = win0_0.index t (0 : Fin 2) * 1024 + (y 0).val) (h1 : (I 1).val = win0_0.index t (1 : Fin 2) * 4096 + (y 1).val) :
    blkOf c VV 0 t y = VV main_v19 I := by
  show VV main_v19 (((cfg0.win 0).blk t).view.emb y) = VV main_v19 I
  refine congrArg (VV main_v19) (funext fun a => Fin.ext ?_)
  match a with
  | ⟨0, _⟩ => show win0_0.index t (0 : Fin 2) * 1024 + 1 * (y 0).val = (I 0).val; omega
  | ⟨1, _⟩ => show win0_0.index t (1 : Fin 2) * 4096 + 1 * (y 1).val = (I 1).val; omega

theorem blk1_apply (t : Fin cfg0.N) (y : S4096x128.Idx) (I : S8192x128.Idx)
    (h0 : (I 0).val = win0_1.index t (0 : Fin 2) * 4096 + (y 0).val) (h1 : (I 1).val = win0_1.index t (1 : Fin 2) * 128 + (y 1).val) :
    blkOf c VV 1 t y = VV main_arg0 I := by
  show VV main_arg0 (((cfg0.win 1).blk t).view.emb y) = VV main_arg0 I
  refine congrArg (VV main_arg0) (funext fun a => Fin.ext ?_)
  match a with
  | ⟨0, _⟩ => show win0_1.index t (0 : Fin 2) * 4096 + 1 * (y 0).val = (I 0).val; omega
  | ⟨1, _⟩ => show win0_1.index t (1 : Fin 2) * 128 + 1 * (y 1).val = (I 1).val; omega

theorem blk2_apply (t : Fin cfg0.N) (y : S128x128.Idx) (I : S128x128.Idx)
    (h0 : (I 0).val = win0_2.index t (0 : Fin 2) * 128 + (y 0).val) (h1 : (I 1).val = win0_2.index t (1 : Fin 2) * 128 + (y 1).val) :
    blkOf c VV 2 t y = VV main_arg2 I := by
  show VV main_arg2 (((cfg0.win 2).blk t).view.emb y) = VV main_arg2 I
  refine congrArg (VV main_arg2) (funext fun a => Fin.ext ?_)
  match a with
  | ⟨0, _⟩ => show win0_2.index t (0 : Fin 2) * 128 + 1 * (y 0).val = (I 0).val; omega
  | ⟨1, _⟩ => show win0_2.index t (1 : Fin 2) * 128 + 1 * (y 1).val = (I 1).val; omega

theorem blk3_apply (t : Fin cfg0.N) (y : S1024x128.Idx) (I : S8192x128.Idx)
    (h0 : (I 0).val = win0_3.index t (0 : Fin 2) * 1024 + (y 0).val) (h1 : (I 1).val = win0_3.index t (1 : Fin 2) * 128 + (y 1).val) :
    blkOf c VV 3 t y = VV main_arg0 I := by
  show VV main_arg0 (((cfg0.win 3).blk t).view.emb y) = VV main_arg0 I
  refine congrArg (VV main_arg0) (funext fun a => Fin.ext ?_)
  match a with
  | ⟨0, _⟩ => show win0_3.index t (0 : Fin 2) * 1024 + 1 * (y 0).val = (I 0).val; omega
  | ⟨1, _⟩ => show win0_3.index t (1 : Fin 2) * 128 + 1 * (y 1).val = (I 1).val; omega

theorem blk4_apply (t : Fin cfg0.N) (y : S128x128.Idx) (I : S128x128.Idx)
    (h0 : (I 0).val = win0_4.index t (0 : Fin 2) * 128 + (y 0).val) (h1 : (I 1).val = win0_4.index t (1 : Fin 2) * 128 + (y 1).val) :
    blkOf c VV 4 t y = VV main_arg3 I := by
  show VV main_arg3 (((cfg0.win 4).blk t).view.emb y) = VV main_arg3 I
  refine congrArg (VV main_arg3) (funext fun a => Fin.ext ?_)
  match a with
  | ⟨0, _⟩ => show win0_4.index t (0 : Fin 2) * 128 + 1 * (y 0).val = (I 0).val; omega
  | ⟨1, _⟩ => show win0_4.index t (1 : Fin 2) * 128 + 1 * (y 1).val = (I 1).val; omega

theorem blk5_apply (t : Fin cfg0.N) (y : S1024x1.Idx) (I : S8192x1.Idx)
    (h0 : (I 0).val = win0_5.index t (0 : Fin 2) * 1024 + (y 0).val) (h1 : (I 1).val = win0_5.index t (1 : Fin 2) * 1 + (y 1).val) :
    blkOf c VV 5 t y = VV main_v29 I := by
  show VV main_v29 (((cfg0.win 5).blk t).view.emb y) = VV main_v29 I
  refine congrArg (VV main_v29) (funext fun a => Fin.ext ?_)
  match a with
  | ⟨0, _⟩ => show win0_5.index t (0 : Fin 2) * 1024 + 1 * (y 0).val = (I 0).val; omega
  | ⟨1, _⟩ => show win0_5.index t (1 : Fin 2) * 1 + 1 * (y 1).val = (I 1).val; omega

set_option maxHeartbeats 1600000 in
/-- What an odd point stores, element by element, is its block of `outFn` of the arrays. -/
theorem block_value_at (t : Fin cfg0.N) (hodd : t.val % 2 = 1) (p : Fin 1024) (q : Fin 128) :
    k0_pay3 (blkOf c VV 3 t) (blkOf c VV 4 t)
        (k0_pay2 (blkOf c VV 1 t) (blkOf c VV 2 t) (blkOf c VV 0 t)
          (k0_pay2 (blkOf c VV 1 (prevPt t)) (blkOf c VV 2 (prevPt t)) (blkOf c VV 0 (prevPt t)) (k0_pay1 (F := Ideal))))
        (blkOf c VV 5 t) (ix2 p q)
      = outFn (VV main_v19) (VV main_arg0) (VV main_arg2) (VV main_arg3) (VV main_v29)
          (((cfg0.win 6).blk t).view.emb (ix2 p q)) := by
  obtain ⟨e6a, e6b, e0a, e0b, e0a', e0b', e1a, e1b, e1a', e1b', e2a, e2b, e2a', e2b', e3a, e3b, e4a, e4b, e5a, e5b⟩ :=
    idx_facts t hodd
  have hp : p.val < 1024 := p.isLt
  have hq : q.val < 128 := q.isLt
  have hR : win0_6.index t (0 : Fin 2) * 1024 + p.val < 8192 := by omega
  refine (point_value (blkOf c VV 1 t) (blkOf c VV 1 (prevPt t)) (blkOf c VV 2 t) (blkOf c VV 2 (prevPt t))
    (blkOf c VV 0 t) (blkOf c VV 0 (prevPt t)) (blkOf c VV 3 t) (blkOf c VV 4 t) (blkOf c VV 5 t) p q).trans ?_
  show _ = outAt (VV main_v19) (VV main_arg0) (VV main_arg2) (VV main_arg3) (VV main_v29)
    ⟨((((cfg0.win 6).blk t).view.emb (ix2 p q)) 0).val, ((((cfg0.win 6).blk t).view.emb (ix2 p q)) 0).isLt⟩
    ⟨((((cfg0.win 6).blk t).view.emb (ix2 p q)) 1).val, ((((cfg0.win 6).blk t).view.emb (ix2 p q)) 1).isLt⟩
  have hRow : (⟨((((cfg0.win 6).blk t).view.emb (ix2 p q)) 0).val, ((((cfg0.win 6).blk t).view.emb (ix2 p q)) 0).isLt⟩ : Fin 8192)
      = ⟨win0_6.index t (0 : Fin 2) * 1024 + p.val, hR⟩ :=
    Fin.ext (by show win0_6.index t (0 : Fin 2) * 1024 + 1 * p.val = win0_6.index t (0 : Fin 2) * 1024 + p.val; omega)
  have hCol : (⟨((((cfg0.win 6).blk t).view.emb (ix2 p q)) 1).val, ((((cfg0.win 6).blk t).view.emb (ix2 p q)) 1).isLt⟩ : Fin 128) = q :=
    Fin.ext (by show win0_6.index t (1 : Fin 2) * 128 + 1 * q.val = q.val; omega)
  rw [hRow, hCol]
  unfold outAt
  have hA' : ∀ k : Fin 4096, blkOf c VV 0 (prevPt t) (ix2 p k) = VV main_v19 (ix2 ⟨win0_6.index t (0 : Fin 2) * 1024 + p.val, hR⟩ (lo k)) :=
    fun k => blk0_apply c VV _ _ _ (by show win0_6.index t (0 : Fin 2) * 1024 + p.val = _ + p.val; omega) (by show k.val = _ + k.val; omega)
  have hA : ∀ k : Fin 4096, blkOf c VV 0 t (ix2 p k) = VV main_v19 (ix2 ⟨win0_6.index t (0 : Fin 2) * 1024 + p.val, hR⟩ (hi k)) :=
    fun k => blk0_apply c VV _ _ _ (by show win0_6.index t (0 : Fin 2) * 1024 + p.val = _ + p.val; omega) (by show 4096 + k.val = _ + k.val; omega)
  have hX' : ∀ (k : Fin 4096) (j : Fin 128), blkOf c VV 1 (prevPt t) (ix2 k j) = VV main_arg0 (ix2 (lo k) j) :=
    fun k j => blk1_apply c VV _ _ _ (by show k.val = _ + k.val; omega) (by show j.val = _ + j.val; omega)
  have hX : ∀ (k : Fin 4096) (j : Fin 128), blkOf c VV 1 t (ix2 k j) = VV main_arg0 (ix2 (hi k) j) :=
    fun k j => blk1_apply c VV _ _ _ (by show 4096 + k.val = _ + k.val; omega) (by show j.val = _ + j.val; omega)
  have hW' : ∀ j : Fin 128, blkOf c VV 2 (prevPt t) (ix2 q j) = VV main_arg2 (ix2 q j) :=
    fun j => blk2_apply c VV _ _ _ (by show q.val = _ + q.val; omega) (by show j.val = _ + j.val; omega)
  have hW : ∀ j : Fin 128, blkOf c VV 2 t (ix2 q j) = VV main_arg2 (ix2 q j) :=
    fun j => blk2_apply c VV _ _ _ (by show q.val = _ + q.val; omega) (by show j.val = _ + j.val; omega)
  have hXi : ∀ j : Fin 128, blkOf c VV 3 t (ix2 p j) = VV main_arg0 (ix2 ⟨win0_6.index t (0 : Fin 2) * 1024 + p.val, hR⟩ j) :=
    fun j => blk3_apply c VV _ _ _ (by show win0_6.index t (0 : Fin 2) * 1024 + p.val = _ + p.val; omega) (by show j.val = _ + j.val; omega)
  have hB : ∀ j : Fin 128, blkOf c VV 4 t (ix2 q j) = VV main_arg3 (ix2 q j) :=
    fun j => blk4_apply c VV _ _ _ (by show q.val = _ + q.val; omega) (by show j.val = _ + j.val; omega)
  have hD : blkOf c VV 5 t (ix2 p (0 : Fin 1)) = VV main_v29 (ix2 ⟨win0_6.index t (0 : Fin 2) * 1024 + p.val, hR⟩ (0 : Fin 1)) :=
    blk5_apply c VV _ _ _ (by show win0_6.index t (0 : Fin 2) * 1024 + p.val = _ + p.val; omega) (by show 0 = _ + 0; omega)
  simp only [hA', hA, hX', hX, hW', hW, hXi, hB, hD]

end AnyContents

/-! ## What an odd point writes back -/

variable (m : (ℓ : Loc nD τ sig) → Buf (Elt Ideal) ℓ) (ρ : Dev nD → PrngReg)

/-- What a flushing point writes back is its block of `outFn` of the arrays as the region finds them. -/
theorem flushed6_eq (c : Dev nD) (t : Fin cfg0.N) (hf : (cfg0.win 6).flush t = true) :
    (dats m 0 c).flushed 6 t = ((cfg0.win 6).blk t).view.read (Elt Ideal)
      (outFn (V m c main_v19) (V m c main_arg0) (V m c main_arg2) (V m c main_arg3) (V m c main_v29)) := by
  have hodd : t.val % 2 = 1 := (flush0_6 t).mp hf
  have h0 : ¬t.val % 2 = 0 := by omega
  show (cfg0.win 6).cut (grid0.coords t) ((dats m 0 c).after 6 t) = _
  rw [after0_6, out_odd m c t (prevPt t) (by show t.val - 1 + 1 = t.val; omega) h0]
  funext j
  obtain ⟨p, q, rfl⟩ : ∃ (p : Fin 1024) (q : Fin 128), j = ix2 p q := ⟨j 0, j 1, eq_ix2 j⟩
  exact block_value_at c (V m c) t hodd p q

/-! ## The eight row blocks tile the array -/

theorem mem_blk6 (t : Fin cfg0.N) (i : S8192x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v30).slice (win0_6.rect t)).set ↔ _
  rw [View.set_slice_whole, Rect.mem_set_unit]
  exact Iff.rfl

theorem covered6 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  obtain ⟨t, hf, ht⟩ := idx_onto ⟨(i 0).val / 1024, by omega⟩
  have q0 : win0_6.index t (0 : Fin 2) = (i 0).val / 1024 := congrFun ht 0
  have q1 : win0_6.index t (1 : Fin 2) = 0 := congrFun ht 1
  refine ⟨t, hf, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 128 ≤ (i 1).val ∧ (i 1).val < win0_6.index t (1 : Fin 2) * 128 + 128; omega

/-- The result array after the run is `outFn` of the arrays as the region finds them. -/
theorem final6 (c : Dev nD) : (dats m 0 c).arrAt 6 cfg0.N
    = outFn (V m c main_v19) (V m c main_arg0) (V m c main_arg2) (V m c main_arg3) (V m c main_v29) :=
  (dats m 0 c).arrAt_eq_of_cover 6 _ (fun t hf => flushed6_eq m c t hf) covered6

end Cert.KernelIdeal.Hand

end
-- ==== Proof.LibNormalize.lean ====
/-
  Dividing each of finitely many positive extended reals by their sum.

  The exponential of a nonnegative extended real is positive (at `+∞` it is `+∞`), so a sum of such
  exponentials over a nonempty index set is positive, hence not zero. Off zero the quotient of the extended
  reals is the product with the inverse, so multiplying by the reciprocal `1 / S` of a nonzero sum and dividing
  by `S` are the same number: no finiteness is needed, the infinities included. A sum of four terms
  accumulated from zero one term at a time is the sum over `Fin 4`.
-/
import Idealize.ShloMosaic.PureOps.Ideal

noncomputable section

namespace Idealize.ShloMosaic.Normalize

open Idealize.ShloMosaic

/-- The word `0x3F800000` denotes the real number one. -/
theorem ofBits_one_f32 : Ideal.ofBits .f32 0x3F800000#32 = 1 := by
  simp [Ideal.ofBits, Ideal.ieee, -EReal.coe_mul]; norm_num

/-- The exponential of a nonnegative extended real is positive. -/
theorem exp_pos_of_nonneg {y : EReal} (h : 0 ≤ y) : 0 < Ideal.exp y := by
  induction y using EReal.rec with
  | bot => exact absurd h (not_le.mpr EReal.bot_lt_zero)
  | coe r => rw [Ideal.exp_coe]; exact_mod_cast Real.exp_pos r
  | top => rw [Ideal.exp_top]; exact EReal.zero_lt_top

/-- The exponential of the positive part `max x 0` is positive, whatever `x`. -/
theorem exp_posPart_pos (x : EReal) : 0 < Ideal.exp (max x 0) := exp_pos_of_nonneg (le_max_right x 0)

/-- A sum of positive extended reals over a nonempty finite index set is positive. -/
theorem sum_pos_of_pos {ι : Type*} [Fintype ι] [Nonempty ι] (e : ι → EReal) (h : ∀ k, 0 < e k) : 0 < ∑ k, e k :=
  let ⟨k0⟩ := ‹Nonempty ι›
  lt_of_lt_of_le (h k0) (Finset.single_le_sum (fun i _ => (h i).le) (Finset.mem_univ k0))

/-- Off zero, multiplying by the reciprocal is dividing. -/
theorem mul_div_one {S : EReal} (hS : S ≠ 0) (s : EReal) : s * Ideal.div 1 S = Ideal.div s S := by
  rw [Ideal.div, Ideal.div, if_neg hS, if_neg hS, one_mul]

/-- Four terms accumulated from zero, one at a time, are their sum. -/
theorem acc4_eq_sum (e : Fin 4 → EReal) : (((0 + e 0) + e 1) + e 2) + e 3 = ∑ k, e k := by
  rw [Fin.sum_univ_four, zero_add]

/-- Each of four positive terms times the reciprocal of their accumulated sum is that term divided by the sum. -/
theorem mul_recip_acc4 (e : Fin 4 → EReal) (h : ∀ k, 0 < e k) (m : Fin 4) :
    e m * Ideal.div 1 ((((0 + e 0) + e 1) + e 2) + e 3) = Ideal.div (e m) (∑ k, e k) := by
  rw [acc4_eq_sum]
  exact mul_div_one (sum_pos_of_pos e h).ne' (e m)

end Idealize.ShloMosaic.Normalize

end
-- ==== Proof.KIHost.lean ====
/-
  What the region finds in the two arrays the host lines compute, as functions of the edge list.

  The kernel's program and the reference prepare the edge indices by the same operations (negative indices wrapped
  by the axis length, the two index columns laid side by side) and count in-degrees by the same scatter-add of
  ones, replacing a zero count by one. So the reciprocal-degree column the kernel is handed is `1 / d` of the
  reference's own degree vector `d`, recast as a column, and the adjacency is the reference's scatter of ones into
  zeros: the kernel writes its zeros and ones in a narrower float format, whose words for zero and one denote the
  same two numbers.
-/
import proofs.«112509_j79422535238375_2_alg».proof.Proof.KIBase
import proofs.«112509_j79422535238375_2_alg».proof.Proof.RefReadP
import proofs.«112509_j79422535238375_2_alg».proof.Proof.LibNormalize
import Idealize.ShloMosaic.Lib.StableHlo.Run
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The narrow format's word for zero denotes zero, -/
theorem ofBits_zero_bf16 : Ideal.ofBits .bf16 0x0000#16 = 0 := by simp [Ideal.ofBits, Ideal.ieee]
/-- and its word `0x3F80` denotes one. -/
theorem ofBits_one_bf16 : Ideal.ofBits .bf16 0x3F80#16 = 1 := by
  simp [Ideal.ofBits, Ideal.ieee, -EReal.coe_mul]; norm_num

/-- The two formats' zero constants are one array of extended reals, -/
theorem constant_zero_bf16_f32 :
    (constant (F := Ideal) S_ .bf16 0x0000#16 : S_.Idx → EReal) = (constant (F := Ideal) S_ .f32 0x00000000#32 : S_.Idx → EReal) :=
  funext fun i => by rw [constant_apply, constant_apply, ofBits_zero_bf16, Ideal.ofBits_zero_f32]
/-- and so are their one constants. -/
theorem constant_one_bf16_f32 :
    (constant (F := Ideal) S_ .bf16 0x3F80#16 : S_.Idx → EReal) = (constant (F := Ideal) S_ .f32 0x3F800000#32 : S_.Idx → EReal) :=
  funext fun i => by rw [constant_apply, constant_apply, ofBits_one_bf16, Normalize.ofBits_one_f32]

set_option maxRecDepth 262144 in
set_option maxHeartbeats 4000000 in
/-- The reciprocal-degree column the region finds: one over the reference's degree vector, recast as a column. -/
theorem V_recip (c : Dev nD) :
    (V m c main_v29 : S8192x1.Idx → EReal)
      = shapeCast S8192x1
          (Host.divf (F := Ideal) (broadcastInDim S8192 ![] bcast_S_S8192 (constant (F := Ideal) S_ .f32 0x3F800000#32))
            (Cert.ReferenceIdeal.Read.val_main_v26 (F := Ideal) (m ((c : Thread nD τ).loc main_arg1))))
          shapeCasts_S8192_S8192x1 := by
  dsimp only [V]
  simp only [hostOps0, hostOps0_1, hostOps0_2, List.flatten_cons, List.flatten_nil, List.append_nil, List.cons_append, List.nil_append]
  after_results_simp
  simp only [TRef.toBuf, TRef.ofBuf, cast_eq, id_eq]
  unfold Cert.ReferenceIdeal.Read.val_main_v26 Cert.ReferenceIdeal.Read.val_main_v25 Cert.ReferenceIdeal.Read.val_main_v24
    Cert.ReferenceIdeal.Read.val_main_v23 Cert.ReferenceIdeal.Read.val_main_v22 Cert.ReferenceIdeal.Read.val_main_v21
    Cert.ReferenceIdeal.Read.val_main_v20 Cert.ReferenceIdeal.Read.val_main_v3 Cert.ReferenceIdeal.Read.val_main_v2
    Cert.ReferenceIdeal.Read.val_main_call0_v1 Cert.ReferenceIdeal.Read.val_main_call0_v0 Cert.ReferenceIdeal.Read.val_main_cst_7
    Cert.ReferenceIdeal.Read.val_main_cst_6 Cert.ReferenceIdeal.Read.val_main_cst_5 Cert.ReferenceIdeal.Read.val_main_cst_4
  rfl

set_option maxRecDepth 262144 in
set_option maxHeartbeats 4000000 in
/-- The adjacency the region finds: the reference's scatter of ones into zeros over the same prepared indices, its
    zeros and ones written in the narrower format. -/
theorem V_adj_narrow (c : Dev nD) :
    (V m c main_v19 : S8192x8192.Idx → EReal)
      = Host.scatter scatter_S8192x8192_S262144x2_S262144_n_01_01_1 (fun _ b => b)
          (broadcastInDim S8192x8192 ![] bcast_S_S8192x8192 (constant (F := Ideal) S_ .bf16 0x0000#16 : S_.Idx → EReal))
          (Cert.ReferenceIdeal.Read.val_main_v17 (F := Ideal) (m ((c : Thread nD τ).loc main_arg1)))
          (broadcastInDim S262144 ![] bcast_S_S262144 (constant (F := Ideal) S_ .bf16 0x3F80#16 : S_.Idx → EReal)) := by
  dsimp only [V]
  simp only [hostOps0, hostOps0_1, hostOps0_2, List.flatten_cons, List.flatten_nil, List.append_nil, List.cons_append, List.nil_append]
  after_results_simp
  unfold Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_c_1 Cert.ReferenceIdeal.Read.val_main_c_2
  rfl

/-- The adjacency the region finds is the reference's. -/
theorem V_adj (c : Dev nD) :
    (V m c main_v19 : S8192x8192.Idx → EReal)
      = Cert.ReferenceIdeal.Read.val_main_v19 (F := Ideal) (m ((c : Thread nD τ).loc main_arg1)) := by
  rw [V_adj_narrow, constant_zero_bf16_f32, constant_one_bf16_f32]
  rfl

end Cert.KernelIdeal.Hand

end
-- ==== Proof.LibHalfSums.lean ====
/-
  A contraction accumulated in two halves and scaled by a reciprocal, against one whole contraction divided.

  A sum of `n + n` terms is the sum of its first `n` plus the sum of its last `n`, in any commutative additive
  monoid, so no finiteness is needed on the extended reals. A count replaced by one where it is zero is never
  zero: if it was zero the result is one, and otherwise it is the count itself. Off zero, multiplying by
  the reciprocal `1 / d` is dividing by `d`. Together: the two half-sums added onto zero and then
  multiplied by `1 / d` are the whole sum divided by `d`.
-/
import Idealize.ShloMosaic.PureOps.Ideal
import proofs.«112509_j79422535238375_2_alg».proof.Proof.LibNormalize

noncomputable section

namespace Idealize.ShloMosaic.HalfSums

open Idealize.ShloMosaic

/-- A sum over `n + n` terms is the sum of the first `n` plus the sum of the last `n`. -/
theorem sum_two_halves {M : Type*} [AddCommMonoid M] (n : ℕ) (f : Fin (n + n) → M) :
    ∑ k, f k = (∑ k : Fin n, f ⟨k.val, by omega⟩) + ∑ k : Fin n, f ⟨n + k.val, by omega⟩ := by
  rw [Fin.sum_univ_add]; rfl

/-- The same for a sum over `N` terms with `N = n + n` given as an equation. -/
theorem sum_halves_of_eq {M : Type*} [AddCommMonoid M] {N : ℕ} (n : ℕ) (h : N = n + n) (f : Fin N → M) :
    ∑ k, f k = (∑ k : Fin n, f ⟨k.val, by omega⟩) + ∑ k : Fin n, f ⟨n + k.val, by omega⟩ := by
  subst h; exact sum_two_halves n f

/-- A value replaced by one where it equals zero is not zero. -/
theorem select_eq_zero_one_ne_zero (cnt : EReal) :
    Scalar.select (Ideal.cmp .oeq cnt 0) (1 : EReal) cnt ≠ 0 := by
  unfold Scalar.select Ideal.cmp
  by_cases h : cnt = 0
  · subst h; simp
  · simp [h]

/-- Two half-sums added onto zero, then scaled by the reciprocal of a nonzero `d`, plus `z`: the whole sum divided
    by `d`, plus `z`. -/
theorem acc_two_scaled (S₁ S₂ d z : EReal) (hd : d ≠ 0) :
    ((0 + S₁) + S₂) * Ideal.div 1 d + z = Ideal.div (S₁ + S₂) d + z := by
  rw [zero_add, Normalize.mul_div_one hd]

end Idealize.ShloMosaic.HalfSums

end
-- ==== Proof.RefStages.lean ====
/-
  The reference's result at row `r` and column `q`, as a formula over the extended reals.

  Reading its operations one at a time: the adjacency's row `r` contracted over all `8192` nodes `k` with row `k` of
  the projected features (the sum over the `128` input features `j` of `x (k, j) · W (q, j)`: the weight enters
  transposed), divided by the degree of node `r`, plus the sum over `j` of `x (r, j) · B (q, j)`. The degree is a
  count with zero replaced by one, so it is never zero.
-/
import proofs.«112509_j79422535238375_2_alg».proof.Proof.RefReadP
import proofs.«112509_j79422535238375_2_alg».proof.Proof.LibHalfSums
import proofs.«112509_j79422535238375_2_alg».proof.Proof.LibNormalize
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-! ## The composed index functions at coordinates -/

theorem lidx29 (r : Fin 8192) (q : Fin 128) (k : Fin 8192) : lidx_main_v29 (ix2 r q) k = ix2 r k :=
  funext fun a => Fin.ext (by match a with | ⟨0, _⟩ => rfl | ⟨1, _⟩ => rfl)
theorem ridx29 (r : Fin 8192) (q : Fin 128) (k : Fin 8192) : ridx_main_v29 (ix2 r q) k = ix2 k q :=
  funext fun a => Fin.ext (by match a with | ⟨0, _⟩ => rfl | ⟨1, _⟩ => rfl)
theorem lidx28 (k : Fin 8192) (q : Fin 128) (j : Fin 128) : lidx_main_v28 (ix2 k q) j = ix2 k j :=
  funext fun a => Fin.ext (by match a with | ⟨0, _⟩ => rfl | ⟨1, _⟩ => rfl)
theorem ridx28 (k : Fin 8192) (q : Fin 128) (j : Fin 128) : ridx_main_v28 (ix2 k q) j = ix2 j q :=
  funext fun a => Fin.ext (by match a with | ⟨0, _⟩ => rfl | ⟨1, _⟩ => rfl)
theorem idx27 (j q : Fin 128) : idx_main_v27 (ix2 j q) = ix2 q j :=
  funext fun a => Fin.ext (by match a with | ⟨0, _⟩ => rfl | ⟨1, _⟩ => rfl)
theorem lidx34 (r : Fin 8192) (q : Fin 128) (j : Fin 128) : lidx_main_v34 (ix2 r q) j = ix2 r j :=
  funext fun a => Fin.ext (by match a with | ⟨0, _⟩ => rfl | ⟨1, _⟩ => rfl)
theorem ridx34 (r : Fin 8192) (q : Fin 128) (j : Fin 128) : ridx_main_v34 (ix2 r q) j = ix2 j q :=
  funext fun a => Fin.ext (by match a with | ⟨0, _⟩ => rfl | ⟨1, _⟩ => rfl)
theorem idx33 (j q : Fin 128) : idx_main_v33 (ix2 j q) = ix2 q j :=
  funext fun a => Fin.ext (by match a with | ⟨0, _⟩ => rfl | ⟨1, _⟩ => rfl)
theorem idx31 (r : Fin 8192) (q : Fin 128) : idx_main_v31 (ix2 r q) = ix2 r (0 : Fin 1) :=
  funext fun a => Fin.ext (by match a with | ⟨0, _⟩ => rfl | ⟨1, _⟩ => rfl)
theorem idx30 (r : Fin 8192) (u : Fin 1) : idx_main_v30 (ix2 r u) = ix1 r :=
  funext fun a => Fin.ext (by match a with | ⟨0, _⟩ => rfl)

/-- The reference's result at `(r, q)`. -/
theorem ref_at (x0 : (⟨S8192x128, .f32⟩ : BufTy).Contents (Elt Ideal)) (x1 : (⟨S2x262144, .i32⟩ : BufTy).Contents (Elt Ideal))
    (x2 x3 : (⟨S128x128, .f32⟩ : BufTy).Contents (Elt Ideal)) (r : Fin 8192) (q : Fin 128) :
    val_main_v35 (F := Ideal) x0 x1 x2 x3 (ix2 r q)
      = Ideal.div (∑ k : Fin 8192, val_main_v19 (F := Ideal) x1 (ix2 r k) * ∑ j : Fin 128, x0 (ix2 k j) * x2 (ix2 q j))
          (val_main_v26 (F := Ideal) x1 (ix1 r))
        + ∑ j : Fin 128, x0 (ix2 r j) * x3 (ix2 q j) := by
  rw [val_main_v35_apply, val_main_v32_apply, val_main_v29_apply, val_main_v31_apply, val_main_v30_apply, val_main_v34_apply]
  simp only [val_main_v28_apply, val_main_v27_apply, val_main_v33_apply, lidx29, ridx29, lidx28, ridx28, idx27, lidx34, ridx34,
    idx33, idx31, idx30, Ideal.addf_def, Ideal.hostDivf_def]

/-- A node's degree — its in-count, or one where that is zero — is not zero. -/
theorem deg_ne_zero (x1 : (⟨S2x262144, .i32⟩ : BufTy).Contents (Elt Ideal)) (i : S8192.Idx) :
    val_main_v26 (F := Ideal) x1 i ≠ 0 := by
  rw [val_main_v26_apply, val_main_v25_apply, val_main_v24_apply, val_main_cst_6_apply, val_main_call0_v1_apply,
    val_main_call0_v0_apply, val_main_cst_7_apply, Ideal.cmpf_def, Ideal.ofBits_def, Ideal.ofBits_def, Ideal.ofBits_zero_f32,
    Normalize.ofBits_one_f32]
  exact HalfSums.select_eq_zero_one_ne_zero _

end Cert.ReferenceIdeal.RefValue

end
-- ==== Proof.KIValue.lean ====
/-
  The kernel's result array is the reference's result, entry by entry, on the extended reals.

  At row `r` and column `q` the kernel holds the adjacency's row `r` contracted with the projected features in two
  halves of `4096` nodes each, added onto zero in order, the sum multiplied by `1 / d` for `d` the degree of node
  `r`, plus the second product; the reference holds the one contraction over all `8192` nodes divided by `d`,
  plus the same second product. A sum of `4096 + 4096` terms is the sum of its halves, and off zero multiplying by
  the reciprocal is dividing; `d` is never zero. No entry needs to be finite.
-/
import proofs.«112509_j79422535238375_2_alg».proof.Proof.KIBlocks
import proofs.«112509_j79422535238375_2_alg».proof.Proof.KIHost
import proofs.«112509_j79422535238375_2_alg».proof.Proof.KIFrame
import proofs.«112509_j79422535238375_2_alg».proof.Proof.RefStages
import proofs.«112509_j79422535238375_2_alg».proof.Proof.LibHalfSums
import proofs.«112509_j79422535238375_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-- The constant one stretched to a vector reads one everywhere. -/
theorem one_stretched_apply (i : S8192.Idx) :
    broadcastInDim S8192 ![] bcast_S_S8192 (constant (F := Ideal) S_ .f32 0x3F800000#32) i = 1 := by
  rw [broadcastInDim_apply _ bcast_S_S8192 _ i (fun a => a.elim0) (fun a => a.elim0), constant_apply, Normalize.ofBits_one_f32]

/-- The host's quotient of two arrays reads, at an index, the quotient of their entries. -/
theorem hostDivf_apply {s : Shape} {φ : FTy} (a b : FVec Ideal s φ) (i : s.Idx) :
    Host.divf a b i = Ideal.div (a i) (b i) := rfl

/-- The kernel's result array after the run is the reference's result of the same argument arrays. -/
theorem result_eq (c : Dev nD) :
    (dats m 0 c).arrAt 6 cfg0.N
      = Cert.ReferenceIdeal.Read.val_main_v35 (F := Ideal) (m ((c : Thread nD τ).loc main_arg0)) (m ((c : Thread nD τ).loc main_arg1))
          (m ((c : Thread nD τ).loc main_arg2)) (m ((c : Thread nD τ).loc main_arg3)) := by
  rw [final6, V_main_arg0, V_main_arg2, V_main_arg3]
  funext i
  obtain ⟨r, q, rfl⟩ : ∃ (r : Fin 8192) (q : Fin 128), i = ix2 r q := ⟨i 0, i 1, eq_ix2 i⟩
  rw [Cert.ReferenceIdeal.RefValue.ref_at]
  show outAt (V m c main_v19) (m ((c : Thread nD τ).loc main_arg0)) (m ((c : Thread nD τ).loc main_arg2))
    (m ((c : Thread nD τ).loc main_arg3)) (V m c main_v29) r q = _
  unfold outAt
  rw [V_adj, V_recip, shapeCast_a_a1_apply, hostDivf_apply, one_stretched_apply]
  refine (HalfSums.acc_two_scaled _ _ _ _ (Cert.ReferenceIdeal.RefValue.deg_ne_zero _ _)).trans ?_
  refine congrArg₂ (· + ·) (congrArg₂ Ideal.div ?_ rfl) rfl
  generalize Cert.ReferenceIdeal.Read.val_main_v19 (F := Ideal) (m ((c : Thread nD τ).loc main_arg1)) = A
  obtain ⟨x0, hx0⟩ : ∃ x0 : S8192x128.Idx → EReal, x0 = m ((c : Thread nD τ).loc main_arg0) := ⟨_, rfl⟩
  obtain ⟨x2, hx2⟩ : ∃ x2 : S128x128.Idx → EReal, x2 = m ((c : Thread nD τ).loc main_arg2) := ⟨_, rfl⟩
  rw [← hx0, ← hx2]
  exact (HalfSums.sum_halves_of_eq (M := EReal) 4096 (by norm_num : (8192 : ℕ) = 4096 + 4096)
    (fun k : Fin 8192 => A (ix2 r k) * ∑ j : Fin 128, x0 (ix2 k j) * x2 (ix2 q j))).symm

/-- The whole program at the ideal instance: it runs to the end with the result array at the reference's value of
    the argument arrays, and the arguments as launched. -/
theorem run_value : θ_run defs (onTc (τ := τ) (main (F := Ideal))) ⟨m, fun _ => 0, ρ⟩ (fun r => ∀ c : Dev nD,
      r.2.mem ((c.tc : Thread nD τ).loc main_v30)
          = Cert.ReferenceIdeal.Read.val_main_v35 (F := Ideal) (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 6).trans (result_eq m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c)))⟩) (run_main m ρ)

end Cert.KernelIdeal.Hand

end
-- ==== Proof.lean ====
/-
  One graph-convolution layer, `D⁻¹ · A · (x · Wᵀ) + x · Bᵀ`, as a pipelined kernel against its plain reference.

  Both programs build the dense adjacency `A` (a scatter of ones into zeros over the edge list) and the in-degrees
  `d` (a scatter-add of ones, zero replaced by one) by the same host operations. The kernel then walks a grid of
  `8 × 2` points: for row block `i` it contracts the adjacency's block `(i, 0)` with the first `4096` rows of the
  projected features `x · Wᵀ` (recomputed from the input block), adds the contraction of block `(i, 1)` with the
  last `4096`, keeps the running sum in a scratch accumulator between the two points, and at the second point scales
  each row by `1 / d`, adds `x · Bᵀ` and stores the block. The reference contracts all `8192` nodes at once and
  divides by `d`.

  The frames: each program runs to the end, faults nowhere and leaves its four arguments unchanged. For the two
  kernel programs this is the launch of the one region — the input matrix is read through two windows, which share
  it half and half — with the accumulator tracked from point to point; for the reference it is its run.
  The idealization rewrote no operation, so nothing is owed for it. On the extended reals the two results agree
  entry by entry: a sum of `4096 + 4096` terms is the sum of its halves, a change of float format is the identity,
  and multiplying by `1 / d` is dividing by `d` because `d` is never zero. No entry needs to be finite.
-/
import proofs.«112509_j79422535238375_2_alg».proof.Defs
import proofs.«112509_j79422535238375_2_alg».proof.Proof.Gen.Kernel
import proofs.«112509_j79422535238375_2_alg».proof.Proof.Gen.KernelIdeal
import proofs.«112509_j79422535238375_2_alg».proof.Proof.Gen.ReferenceIdeal
import proofs.«112509_j79422535238375_2_alg».proof.Proof.Gen.Pre_finite_inputs
import proofs.«112509_j79422535238375_2_alg».proof.Proof.KFrame
import proofs.«112509_j79422535238375_2_alg».proof.Proof.KIFrame
import proofs.«112509_j79422535238375_2_alg».proof.Proof.KIValue
import proofs.«112509_j79422535238375_2_alg».proof.Proof.RefReadP
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the reference's value of
    those arguments. -/
theorem algebraic : Cert.algebraic_KernelIdeal_ReferenceIdeal := by
  intro m ρ m' ρ' _ hagree
  refine ⟨fun c => Cert.ReferenceIdeal.Read.val_main_v35 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
